-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x39x1 : Shape := ⟨3, ![4096, 39, 1]⟩
abbrev S39x100000x1 : Shape := ⟨3, ![39, 100000, 1]⟩
abbrev S39x100000x16 : Shape := ⟨3, ![39, 100000, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S_ : Shape := ⟨0, ![]⟩

class Facts : Prop where
  bcast_S_S4096x39x1 : S_.BroadcastsInDim S4096x39x1 (![] : Fin 0 → Fin S4096x39x1.rank)
  reducesTo_S4096x39x1_S_d0_1_2 : S4096x39x1.ReducesTo [0, 1, 2] S_
  h_S_ : 0 < S_.numel
  bcast_S_S39x100000x1 : S_.BroadcastsInDim S39x100000x1 (![] : Fin 0 → Fin S39x100000x1.rank)
  reducesTo_S39x100000x1_S_d0_1_2 : S39x100000x1.ReducesTo [0, 1, 2] S_
  bcast_S_S39x100000x16 : S_.BroadcastsInDim S39x100000x16 (![] : Fin 0 → Fin S39x100000x16.rank)
  reducesTo_S39x100000x16_S_d0_1_2 : S39x100000x16.ReducesTo [0, 1, 2] S_
  bcast_S_S624x400 : S_.BroadcastsInDim S624x400 (![] : Fin 0 → Fin S624x400.rank)
  reducesTo_S624x400_S_d0_1 : S624x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S400 .f32) (main_arg6 : FVec F S400x400 .f32) (main_arg7 : FVec F S400 .f32) (main_arg8 : FVec F S1 .f32) (main_v13 : IVec S_ 1) (main_v16 : IVec S624x400 1) : IVec S_ 1 :=
  let main_c_5 : IVec S_ 1 := constantI S_ 1 1#1
  let main_v17 : IVec S_ 1 := (fun x v => Host.reduce IntOp.andi x v reducesTo_S624x400_S_d0_1 h_S_) main_v16 main_c_5
  let main_v18 : IVec S_ 1 := andi main_v13 main_v17
  let main_v19 : FVec F S400 .f32 := Host.absf main_arg5
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x400 .f32 := Host.absf main_arg6
  let main_cst_8 : FVec F S_ .f32 := constant S_ .f32 0x7F800000#32
  let main_v25 : FVec F S400x400 .f32 := broadcastInDim S400x400 ![] bcast_S_S400x400 main_cst_8
  let main_v26 : IVec S400x400 1 := cmpf .olt main_v24 main_v25
  let main_c_9 : IVec S_ 1 := constantI S_ 1 1#1
  let main_v27 : IVec S_ 1 := (fun x v => Host.reduce IntOp.andi x v reducesTo_S400x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_v33

def fn {F : FTy → Type} [FloatOps F] (main_arg0 : IVec S4096x39x1 32) (main_arg1 : FVec F S4096x39x1 .f32) (main_arg2 : FVec F S39x100000x1 .f32) (main_arg3 : FVec F S39x100000x16 .f32) (main_arg4 : FVec F S624x400 .f32) (main_arg5 : FVec F S400 .f32) (main_arg6 : FVec F S400x400 .f32) (main_arg7 : FVec F S400 .f32) (main_arg8 : FVec F S1 .f32) : IVec S_ 1 :=
  let main_v0 : FVec F S4096x39x1 .f32 := Host.absf main_arg1
  let main_cst : FVec F S_ .f32 := constant S_ .f32 0x7F800000#32
  let main_v1 : FVec F S4096x39x1 .f32 := broadcastInDim S4096x39x1 ![] bcast_S_S4096x39x1 main_cst
  let main_v2 : IVec S4096x39x1 1 := cmpf .olt main_v0 main_v1
  let main_c : IVec S_ 1 := constantI S_ 1 1#1
  let main_v3 : IVec S_ 1 := (fun x v => Host.reduce IntOp.andi x v reducesTo_S4096x39x1_S_d0_1_2 h_S_) main_v2 main_c
  let main_v4 : FVec F S39x100000x1 .f32 := Host.absf main_arg2
  let main_cst_0 : FVec F S_ .f32 := constant S_ .f32 0x7F800000#32
  let main_v5 : FVec F S39x100000x1 .f32 := broadcastInDim S39x100000x1 ![] bcast_S_S39x100000x1 main_cst_0
  let main_v6 : IVec S39x100000x1 1 := cmpf .olt main_v4 main_v5
  let main_c_1 : IVec S_ 1 := constantI S_ 1 1#1
  let main_v7 : IVec S_ 1 := (fun x v => Host.reduce IntOp.andi x v reducesTo_S39x100000x1_S_d0_1_2 h_S_) main_v6 main_c_1
  let main_v8 : IVec S_ 1 := andi main_v3 main_v7
  let main_v9 : FVec F S39x100000x16 .f32 := Host.absf main_arg3
  let main_cst_2 : FVec F S_ .f32 := constant S_ .f32 0x7F800000#32
  let main_v10 : FVec F S39x100000x16 .f32 := broadcastInDim S39x100000x16 ![] bcast_S_S39x100000x16 main_cst_2
  let main_v11 : IVec S39x100000x16 1 := cmpf .olt main_v9 main_v10
  let main_c_3 : IVec S_ 1 := constantI S_ 1 1#1
  let main_v12 : IVec S_ 1 := (fun x v => Host.reduce IntOp.andi x v reducesTo_S39x100000x16_S_d0_1_2 h_S_) main_v11 main_c_3
  let main_v13 : IVec S_ 1 := andi main_v8 main_v12
  let main_v14 : FVec F S624x400 .f32 := Host.absf main_arg4
  let main_cst_4 : FVec F S_ .f32 := constant S_ .f32 0x7F800000#32
  let main_v15 : FVec F S624x400 .f32 := broadcastInDim S624x400 ![] bcast_S_S624x400 main_cst_4
  let main_v16 : IVec S624x400 1 := cmpf .olt main_v14 main_v15
  fn_part1 (F := F) main_arg5 main_arg6 main_arg7 main_arg8 main_v13 main_v16
-- ==== Kernel.lean ====
abbrev S4096x39x1 : Shape := ⟨3, ![4096, 39, 1]⟩
abbrev S39x100000x1 : Shape := ⟨3, ![39, 100000, 1]⟩
abbrev S39x100000x16 : Shape := ⟨3, ![39, 100000, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S4096x39 : Shape := ⟨2, ![4096, 39]⟩
abbrev S39 : Shape := ⟨1, ![39]⟩
abbrev S1x39 : Shape := ⟨2, ![1, 39]⟩
abbrev S_ : Shape := ⟨0, ![]⟩
abbrev S4096x39x3 : Shape := ⟨3, ![4096, 39, 3]⟩
abbrev S4096x39x2 : Shape := ⟨3, ![4096, 39, 2]⟩
abbrev S4096x39x16 : Shape := ⟨3, ![4096, 39, 16]⟩
abbrev S4096x624 : Shape := ⟨2, ![4096, 624]⟩
abbrev S4096x16 : Shape := ⟨2, ![4096, 16]⟩
abbrev S4096 : Shape := ⟨1, ![4096]⟩
abbrev S4096x1 : Shape := ⟨2, ![4096, 1]⟩
abbrev S1x1 : Shape := ⟨2, ![1, 1]⟩
abbrev S1x400 : Shape := ⟨2, ![1, 400]⟩
abbrev S1024x624 : Shape := ⟨2, ![1024, 624]⟩
abbrev S1024x1 : Shape := ⟨2, ![1024, 1]⟩
abbrev S1024x400 : Shape := ⟨2, ![1024, 400]⟩
abbrev S1024 : Shape := ⟨1, ![1024]⟩

abbrev nBuf : Space → Nat
  | .hbm => 87
  | .vmem => 10
  | .smem => 0
  | _ => 0

abbrev bufTy : (tb : Table) → Fin (tcTables nBuf tb) → BufTy
  | .hbm, ⟨0, _⟩ => ⟨S4096x39x1, .i32⟩
  | .hbm, ⟨1, _⟩ => ⟨S4096x39x1, .f32⟩
  | .hbm, ⟨2, _⟩ => ⟨S39x100000x1, .f32⟩
  | .hbm, ⟨3, _⟩ => ⟨S39x100000x16, .f32⟩
  | .hbm, ⟨4, _⟩ => ⟨S624x400, .f32⟩
  | .hbm, ⟨5, _⟩ => ⟨S400, .f32⟩
  | .hbm, ⟨6, _⟩ => ⟨S400x400, .f32⟩
  | .hbm, ⟨7, _⟩ => ⟨S400, .f32⟩
  | .hbm, ⟨8, _⟩ => ⟨S1, .f32⟩
  | .hbm, ⟨9, _⟩ => ⟨S4096x39, .i32⟩
  | .hbm, ⟨10, _⟩ => ⟨S4096x39, .f32⟩
  | .hbm, ⟨11, _⟩ => ⟨S39, .i32⟩
  | .hbm, ⟨12, _⟩ => ⟨S1x39, .i32⟩
  | .hbm, ⟨13, _⟩ => ⟨S_, .i32⟩
  | .hbm, ⟨14, _⟩ => ⟨S1x39, .i32⟩
  | .hbm, ⟨15, _⟩ => ⟨S1x39, .i1⟩
  | .hbm, ⟨16, _⟩ => ⟨S_, .i32⟩
  | .hbm, ⟨17, _⟩ => ⟨S1x39, .i32⟩
  | .hbm, ⟨18, _⟩ => ⟨S1x39, .i32⟩
  | .hbm, ⟨19, _⟩ => ⟨S1x39, .i32⟩
  | .hbm, ⟨20, _⟩ => ⟨S_, .i32⟩
  | .hbm, ⟨21, _⟩ => ⟨S4096x39, .i32⟩
  | .hbm, ⟨22, _⟩ => ⟨S4096x39, .i1⟩
  | .hbm, ⟨23, _⟩ => ⟨S_, .i32⟩
  | .hbm, ⟨24, _⟩ => ⟨S4096x39, .i32⟩
  | .hbm, ⟨25, _⟩ => ⟨S4096x39, .i32⟩
  | .hbm, ⟨26, _⟩ => ⟨S4096x39, .i32⟩
  | .hbm, ⟨27, _⟩ => ⟨S4096x39, .i32⟩
  | .hbm, ⟨28, _⟩ => ⟨S_, .i32⟩
  | .hbm, ⟨29, _⟩ => ⟨S4096x39, .i32⟩
  | .hbm, ⟨30, _⟩ => ⟨S4096x39, .i32⟩
  | .hbm, ⟨31, _⟩ => ⟨S4096x39x1, .i32⟩
  | .hbm, ⟨32, _⟩ => ⟨S4096x39x1, .i32⟩
  | .hbm, ⟨33, _⟩ => ⟨S4096x39x1, .i32⟩
  | .hbm, ⟨34, _⟩ => ⟨S4096x39x3, .i32⟩
  | .hbm, ⟨35, _⟩ => ⟨S4096x39, .f32⟩
  | .hbm, ⟨36, _⟩ => ⟨S_, .i32⟩
  | .hbm, ⟨37, _⟩ => ⟨S1x39, .i32⟩
  | .hbm, ⟨38, _⟩ => ⟨S1x39, .i1⟩
  | .hbm, ⟨39, _⟩ => ⟨S_, .i32⟩
  | .hbm, ⟨40, _⟩ => ⟨S1x39, .i32⟩
  | .hbm, ⟨41, _⟩ => ⟨S1x39, .i32⟩
  | .hbm, ⟨42, _⟩ => ⟨S1x39, .i32⟩
  | .hbm, ⟨43, _⟩ => ⟨S_, .i32⟩
  | .hbm, ⟨44, _⟩ => ⟨S4096x39, .i32⟩
  | .hbm, ⟨45, _⟩ => ⟨S4096x39, .i1⟩
  | .hbm, ⟨46, _⟩ => ⟨S_, .i32⟩
  | .hbm, ⟨47, _⟩ => ⟨S4096x39, .i32⟩
  | .hbm, ⟨48, _⟩ => ⟨S4096x39, .i32⟩
  | .hbm, ⟨49, _⟩ => ⟨S4096x39, .i32⟩
  | .hbm, ⟨50, _⟩ => ⟨S4096x39, .i32⟩
  | .hbm, ⟨51, _⟩ => ⟨S4096x39x1, .i32⟩
  | .hbm, ⟨52, _⟩ => ⟨S4096x39x1, .i32⟩
  | .hbm, ⟨53, _⟩ => ⟨S4096x39x2, .i32⟩
  | .hbm, ⟨54, _⟩ => ⟨S4096x39x16, .f32⟩
  | .hbm, ⟨55, _⟩ => ⟨S4096x39, .f32⟩
  | .hbm, ⟨56, _⟩ => ⟨S4096x39x1, .f32⟩
  | .hbm, ⟨57, _⟩ => ⟨S4096x39x16, .f32⟩
  | .hbm, ⟨58, _⟩ => ⟨S4096x39x16, .f32⟩
  | .hbm, ⟨59, _⟩ => ⟨S4096x624, .f32⟩
  | .hbm, ⟨60, _⟩ => ⟨S_, .f32⟩
  | .hbm, ⟨61, _⟩ => ⟨S4096x16, .f32⟩
  | .hbm, ⟨62, _⟩ => ⟨S4096x16, .f32⟩
  | .hbm, ⟨63, _⟩ => ⟨S4096x39x16, .f32⟩
  | .hbm, ⟨64, _⟩ => ⟨S_, .f32⟩
  | .hbm, ⟨65, _⟩ => ⟨S4096x16, .f32⟩
  | .hbm, ⟨66, _⟩ => ⟨S4096x16, .f32⟩
  | .hbm, ⟨67, _⟩ => ⟨S_, .f32⟩
  | .hbm, ⟨68, _⟩ => ⟨S4096x16, .f32⟩
  | .hbm, ⟨69, _⟩ => ⟨S4096x16, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1, .f32⟩
  | .hbm, ⟨77, _⟩ => ⟨S1x1, .f32⟩
  | .hbm, ⟨78, _⟩ => ⟨S4096x1, .f32⟩
  | .hbm, ⟨79, _⟩ => ⟨S4096x1, .f32⟩
  | .hbm, ⟨80, _⟩ => ⟨S4096x624, .bf16⟩
  | .hbm, ⟨81, _⟩ => ⟨S624x400, .bf16⟩
  | .hbm, ⟨82, _⟩ => ⟨S400x400, .bf16⟩
  | .hbm, ⟨83, _⟩ => ⟨S1x400, .f32⟩
  | .hbm, ⟨84, _⟩ => ⟨S1x400, .f32⟩
  | .hbm, ⟨85, _⟩ => ⟨S4096x1, .f32⟩
  | .hbm, ⟨86, _⟩ => ⟨S4096, .f32⟩
  | .local _ .vmem, ⟨0, _⟩ => ⟨S1024x624, .bf16⟩
  | .local _ .vmem, ⟨1, _⟩ => ⟨S1024x624, .bf16⟩
  | .local _ .vmem, ⟨2, _⟩ => ⟨S1024x1, .f32⟩
  | .local _ .vmem, ⟨3, _⟩ => ⟨S1024x1, .f32⟩
  | .local _ .vmem, ⟨4, _⟩ => ⟨S624x400, .bf16⟩
  | .local _ .vmem, ⟨5, _⟩ => ⟨S1x400, .f32⟩
  | .local _ .vmem, ⟨6, _⟩ => ⟨S400x400, .bf16⟩
  | .local _ .vmem, ⟨7, _⟩ => ⟨S1x400, .f32⟩
  | .local _ .vmem, ⟨8, _⟩ => ⟨S1024x1, .f32⟩
  | .local _ .vmem, ⟨9, _⟩ => ⟨S1024x1, .f32⟩
  | _, _ => ⟨S4096x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x624 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S624x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400x400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096x39x1_S4096x39 : S4096x39x1.ShapeCasts S4096x39
  bcast_S39_S1x39_1 : S39.BroadcastsInDim S1x39 (![1] : Fin 1 → Fin S1x39.rank)
  bcast_S_S1x39 : S_.BroadcastsInDim S1x39 (![] : Fin 0 → Fin S1x39.rank)
  bcast_S_S4096x39 : S_.BroadcastsInDim S4096x39 (![] : Fin 0 → Fin S4096x39.rank)
  bcast_S1x39_S4096x39_0_1 : S1x39.BroadcastsInDim S4096x39 (![0, 1] : Fin 2 → Fin S4096x39.rank)
  bcast_S4096x39_S4096x39x1_0_1 : S4096x39.BroadcastsInDim S4096x39x1 (![0, 1] : Fin 2 → Fin S4096x39x1.rank)
  concatenates_S4096x39x1_S4096x39x1_S4096x39x1_S4096x39x3_d2 : Shape.Concatenates [S4096x39x1, S4096x39x1, S4096x39x1] S4096x39x3 2
  concatenates_S4096x39x1_S4096x39x1_S4096x39x2_d2 : Shape.Concatenates [S4096x39x1, S4096x39x1] S4096x39x2 2
  bcast_S4096x39x1_S4096x39x16_0_1_2 : S4096x39x1.BroadcastsInDim S4096x39x16 (![0, 1, 2] : Fin 3 → Fin S4096x39x16.rank)
  shapeCasts_S4096x39x16_S4096x624 : S4096x39x16.ShapeCasts S4096x624
  reducesTo_S4096x39x16_S4096x16_d1 : S4096x39x16.ReducesTo [1] S4096x16
  h_S_ : 0 < S_.numel
  bcast_S_S4096x16 : S_.BroadcastsInDim S4096x16 (![] : Fin 0 → Fin S4096x16.rank)
  reducesTo_S4096x39_S4096_d1 : S4096x39.ReducesTo [1] S4096
  bcast_S4096_S4096x1_0 : S4096.BroadcastsInDim S4096x1 (![0] : Fin 1 → Fin S4096x1.rank)
  reducesTo_S4096x16_S4096_d1 : S4096x16.ReducesTo [1] S4096
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bitsLt_bf16_f32 : FTy.bits .bf16 < FTy.bits .f32
  shapeCasts_S400_S1x400 : S400.ShapeCasts S1x400
  inb_S1024x624_S1024x624_0_0 : ∀ a, (![0, 0] : Fin 2 → Nat) a + S1024x624.size a ≤ S1024x624.size a
  h_S1024x624 : 0 < S1024x624.numel
  shapeCasts_S1024x624_S1024x624 : S1024x624.ShapeCasts S1024x624
  inb_S624x400_S624x400_0_0 : ∀ a, (![0, 0] : Fin 2 → Nat) a + S624x400.size a ≤ S624x400.size a
  h_S624x400 : 0 < S624x400.numel
  shapeCasts_S624x400_S624x400 : S624x400.ShapeCasts S624x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S1024x400 : S1x400.Broadcasts S1024x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  reduces_S1024x400_S1024 : S1024x400.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S4096x1_S4096 : S4096x1.ShapeCasts S4096
  gather_S39x100000x1_S4096x39x3_S4096x39_n_012_n_n_012_2_111_wf : GatherDims.WF S39x100000x1 S4096x39x3 S4096x39 [] [0, 1, 2] [] [0, 1, 2] [] 2 ![1, 1, 1]
  gather_S39x100000x16_S4096x39x2_S4096x39x16_2_01_n_n_01_2_1116_wf : GatherDims.WF S39x100000x16 S4096x39x2 S4096x39x16 [2] [0, 1] [] [0, 1] [] 2 ![1, 1, 16]
  dot_S1024x624_S624x400_S1024x400_1_0_0_1_n_n_wf : DotDims.WF S1024x624 S624x400 S1024x400 [1] [0] [0] [1] [] []
  dot_S1024x400_S400x400_S1024x400_1_0_0_1_n_n_wf : DotDims.WF S1024x400 S400x400 S1024x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x624.size a ≤ S4096x624.size a
  hwx0_0 : ∀ i : grid0.Coords, EltTy.bits .bf16 = 32 ∨ (Rect.block (s := S4096x624) S1024x624.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S624x400.size a ≤ S624x400.size a
  hwx0_2 : ∀ i : grid0.Coords, EltTy.bits .bf16 = 32 ∨ (Rect.block (s := S624x400) S624x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x400.size a ≤ S1x400.size a
  hwx0_3 : ∀ i : grid0.Coords, EltTy.bits .f32 = 32 ∨ (Rect.block (s := S1x400) S1x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x400.size a ≤ S400x400.size a
  hwx0_4 : ∀ i : grid0.Coords, EltTy.bits .bf16 = 32 ∨ (Rect.block (s := S400x400) S400x400.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x400.size a ≤ S1x400.size a
  hwx0_5 : ∀ i : grid0.Coords, EltTy.bits .f32 = 32 ∨ (Rect.block (s := S1x400) S1x400.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def gather_S39x100000x1_S4096x39x3_S4096x39_n_012_n_n_012_2_111 : GatherDims S39x100000x1 S4096x39x3 S4096x39 where
  offsetDims := []
  collapsedSliceDims := [0, 1, 2]
  operandBatchingDims := []
  startIndicesBatchingDims := []
  startIndexMap := [0, 1, 2]
  indexVectorDim := 2
  sliceSizes := ![1, 1, 1]
  wf := gather_S39x100000x1_S4096x39x3_S4096x39_n_012_n_n_012_2_111_wf
def gather_S39x100000x16_S4096x39x2_S4096x39x16_2_01_n_n_01_2_1116 : GatherDims S39x100000x16 S4096x39x2 S4096x39x16 where
  offsetDims := [2]
  collapsedSliceDims := [0, 1]
  operandBatchingDims := []
  startIndicesBatchingDims := []
  startIndexMap := [0, 1]
  indexVectorDim := 2
  sliceSizes := ![1, 1, 16]
  wf := gather_S39x100000x16_S4096x39x2_S4096x39x16_2_01_n_n_01_2_1116_wf
def dot_S1024x624_S624x400_S1024x400_1_0_0_1_n_n : DotDims S1024x624 S624x400 S1024x400 where
  lhsContracting := [1]
  rhsContracting := [0]
  lhsNonContracting := [0]
  rhsNonContracting := [1]
  lhsBatch := []
  rhsBatch := []
  wf := dot_S1024x624_S624x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf

abbrev win0_0 : Pipeline.Window sig grid0 :=
  Pipeline.Window.ofSpec (Memref.whole main_v57) S1024x624.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S624x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S400x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S1x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x39x1 : Shape := ⟨3, ![4096, 39, 1]⟩
abbrev S39x100000x1 : Shape := ⟨3, ![39, 100000, 1]⟩
abbrev S39x100000x16 : Shape := ⟨3, ![39, 100000, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S4096x39 : Shape := ⟨2, ![4096, 39]⟩
abbrev S39 : Shape := ⟨1, ![39]⟩
abbrev S1x39 : Shape := ⟨2, ![1, 39]⟩
abbrev S_ : Shape := ⟨0, ![]⟩
abbrev S4096x39x3 : Shape := ⟨3, ![4096, 39, 3]⟩
abbrev S4096x39x2 : Shape := ⟨3, ![4096, 39, 2]⟩
abbrev S4096x39x16 : Shape := ⟨3, ![4096, 39, 16]⟩
abbrev S4096x16 : Shape := ⟨2, ![4096, 16]⟩
abbrev S4096x624 : Shape := ⟨2, ![4096, 624]⟩
abbrev S4096x400 : Shape := ⟨2, ![4096, 400]⟩
abbrev S1x400 : Shape := ⟨2, ![1, 400]⟩
abbrev S4096 : Shape := ⟨1, ![4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x39x1, .i32⟩
  | .hbm, ⟨1, _⟩ => ⟨S4096x39x1, .f32⟩
  | .hbm, ⟨2, _⟩ => ⟨S39x100000x1, .f32⟩
  | .hbm, ⟨3, _⟩ => ⟨S39x100000x16, .f32⟩
  | .hbm, ⟨4, _⟩ => ⟨S624x400, .f32⟩
  | .hbm, ⟨5, _⟩ => ⟨S400, .f32⟩
  | .hbm, ⟨6, _⟩ => ⟨S400x400, .f32⟩
  | .hbm, ⟨7, _⟩ => ⟨S400, .f32⟩
  | .hbm, ⟨8, _⟩ => ⟨S1, .f32⟩
  | .hbm, ⟨9, _⟩ => ⟨S4096x39, .i32⟩
  | .hbm, ⟨10, _⟩ => ⟨S4096x39, .f32⟩
  | .hbm, ⟨11, _⟩ => ⟨S39, .i32⟩
  | .hbm, ⟨12, _⟩ => ⟨S1x39, .i32⟩
  | .hbm, ⟨13, _⟩ => ⟨S_, .i32⟩
  | .hbm, ⟨14, _⟩ => ⟨S1x39, .i32⟩
  | .hbm, ⟨15, _⟩ => ⟨S1x39, .i1⟩
  | .hbm, ⟨16, _⟩ => ⟨S_, .i32⟩
  | .hbm, ⟨17, _⟩ => ⟨S1x39, .i32⟩
  | .hbm, ⟨18, _⟩ => ⟨S1x39, .i32⟩
  | .hbm, ⟨19, _⟩ => ⟨S1x39, .i32⟩
  | .hbm, ⟨20, _⟩ => ⟨S_, .i32⟩
  | .hbm, ⟨21, _⟩ => ⟨S4096x39, .i32⟩
  | .hbm, ⟨22, _⟩ => ⟨S4096x39, .i1⟩
  | .hbm, ⟨23, _⟩ => ⟨S_, .i32⟩
  | .hbm, ⟨24, _⟩ => ⟨S4096x39, .i32⟩
  | .hbm, ⟨25, _⟩ => ⟨S4096x39, .i32⟩
  | .hbm, ⟨26, _⟩ => ⟨S4096x39, .i32⟩
  | .hbm, ⟨27, _⟩ => ⟨S4096x39, .i32⟩
  | .hbm, ⟨28, _⟩ => ⟨S_, .i32⟩
  | .hbm, ⟨29, _⟩ => ⟨S4096x39, .i32⟩
  | .hbm, ⟨30, _⟩ => ⟨S4096x39, .i32⟩
  | .hbm, ⟨31, _⟩ => ⟨S4096x39x1, .i32⟩
  | .hbm, ⟨32, _⟩ => ⟨S4096x39x1, .i32⟩
  | .hbm, ⟨33, _⟩ => ⟨S4096x39x1, .i32⟩
  | .hbm, ⟨34, _⟩ => ⟨S4096x39x3, .i32⟩
  | .hbm, ⟨35, _⟩ => ⟨S4096x39, .f32⟩
  | .hbm, ⟨36, _⟩ => ⟨S4096x39, .f32⟩
  | .hbm, ⟨37, _⟩ => ⟨S_, .i32⟩
  | .hbm, ⟨38, _⟩ => ⟨S1x39, .i32⟩
  | .hbm, ⟨39, _⟩ => ⟨S1x39, .i1⟩
  | .hbm, ⟨40, _⟩ => ⟨S_, .i32⟩
  | .hbm, ⟨41, _⟩ => ⟨S1x39, .i32⟩
  | .hbm, ⟨42, _⟩ => ⟨S1x39, .i32⟩
  | .hbm, ⟨43, _⟩ => ⟨S1x39, .i32⟩
  | .hbm, ⟨44, _⟩ => ⟨S_, .i32⟩
  | .hbm, ⟨45, _⟩ => ⟨S4096x39, .i32⟩
  | .hbm, ⟨46, _⟩ => ⟨S4096x39, .i1⟩
  | .hbm, ⟨47, _⟩ => ⟨S_, .i32⟩
  | .hbm, ⟨48, _⟩ => ⟨S4096x39, .i32⟩
  | .hbm, ⟨49, _⟩ => ⟨S4096x39, .i32⟩
  | .hbm, ⟨50, _⟩ => ⟨S4096x39, .i32⟩
  | .hbm, ⟨51, _⟩ => ⟨S4096x39, .i32⟩
  | .hbm, ⟨52, _⟩ => ⟨S4096x39x1, .i32⟩
  | .hbm, ⟨53, _⟩ => ⟨S4096x39x1, .i32⟩
  | .hbm, ⟨54, _⟩ => ⟨S4096x39x2, .i32⟩
  | .hbm, ⟨55, _⟩ => ⟨S4096x39x16, .f32⟩
  | .hbm, ⟨56, _⟩ => ⟨S4096x39x1, .f32⟩
  | .hbm, ⟨57, _⟩ => ⟨S4096x39x16, .f32⟩
  | .hbm, ⟨58, _⟩ => ⟨S4096x39x16, .f32⟩
  | .hbm, ⟨59, _⟩ => ⟨S_, .f32⟩
  | .hbm, ⟨60, _⟩ => ⟨S4096x16, .f32⟩
  | .hbm, ⟨61, _⟩ => ⟨S4096x16, .f32⟩
  | .hbm, ⟨62, _⟩ => ⟨S4096x39x16, .f32⟩
  | .hbm, ⟨63, _⟩ => ⟨S_, .f32⟩
  | .hbm, ⟨64, _⟩ => ⟨S4096x16, .f32⟩
  | .hbm, ⟨65, _⟩ => ⟨S4096x16, .f32⟩
  | .hbm, ⟨66, _⟩ => ⟨S_, .f32⟩
  | .hbm, ⟨67, _⟩ => ⟨S4096x16, .f32⟩
  | .hbm, ⟨68, _⟩ => ⟨S4096x16, .f32⟩
  | .hbm, ⟨69, _⟩ => ⟨S4096x624, .f32⟩
  | .hbm, ⟨70, _⟩ => ⟨S4096x400, .f32⟩
  | .hbm, ⟨71, _⟩ => ⟨S1x400, .f32⟩
  | .hbm, ⟨72, _⟩ => ⟨S4096x400, .f32⟩
  | .hbm, ⟨73, _⟩ => ⟨S4096x400, .f32⟩
  | .hbm, ⟨74, _⟩ => ⟨S_, .f32⟩
  | .hbm, ⟨75, _⟩ => ⟨S4096x400, .f32⟩
  | .hbm, ⟨76, _⟩ => ⟨S4096x400, .f32⟩
  | .hbm, ⟨77, _⟩ => ⟨S4096x400, .f32⟩
  | .hbm, ⟨78, _⟩ => ⟨S1x400, .f32⟩
  | .hbm, ⟨79, _⟩ => ⟨S4096x400, .f32⟩
  | .hbm, ⟨80, _⟩ => ⟨S4096x400, .f32⟩
  | .hbm, ⟨81, _⟩ => ⟨S_, .f32⟩
  | .hbm, ⟨82, _⟩ => ⟨S4096x400, .f32⟩
  | .hbm, ⟨83, _⟩ => ⟨S4096x400, .f32⟩
  | .hbm, ⟨84, _⟩ => ⟨S_, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | _, _ => ⟨S4096x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  shapeCasts_S4096x39x1_S4096x39 : S4096x39x1.ShapeCasts S4096x39
  bcast_S39_S1x39_1 : S39.BroadcastsInDim S1x39 (![1] : Fin 1 → Fin S1x39.rank)
  bcast_S_S1x39 : S_.BroadcastsInDim S1x39 (![] : Fin 0 → Fin S1x39.rank)
  bcast_S_S4096x39 : S_.BroadcastsInDim S4096x39 (![] : Fin 0 → Fin S4096x39.rank)
  bcast_S1x39_S4096x39_0_1 : S1x39.BroadcastsInDim S4096x39 (![0, 1] : Fin 2 → Fin S4096x39.rank)
  bcast_S4096x39_S4096x39x1_0_1 : S4096x39.BroadcastsInDim S4096x39x1 (![0, 1] : Fin 2 → Fin S4096x39x1.rank)
  concatenates_S4096x39x1_S4096x39x1_S4096x39x1_S4096x39x3_d2 : Shape.Concatenates [S4096x39x1, S4096x39x1, S4096x39x1] S4096x39x3 2
  concatenates_S4096x39x1_S4096x39x1_S4096x39x2_d2 : Shape.Concatenates [S4096x39x1, S4096x39x1] S4096x39x2 2
  bcast_S4096x39x1_S4096x39x16_0_1_2 : S4096x39x1.BroadcastsInDim S4096x39x16 (![0, 1, 2] : Fin 3 → Fin S4096x39x16.rank)
  reducesTo_S4096x39x16_S4096x16_d1 : S4096x39x16.ReducesTo [1] S4096x16
  h_S_ : 0 < S_.numel
  bcast_S_S4096x16 : S_.BroadcastsInDim S4096x16 (![] : Fin 0 → Fin S4096x16.rank)
  shapeCasts_S4096x39x16_S4096x624 : S4096x39x16.ShapeCasts S4096x624
  bcast_S400_S1x400_1 : S400.BroadcastsInDim S1x400 (![1] : Fin 1 → Fin S1x400.rank)
  bcast_S1x400_S4096x400_0_1 : S1x400.BroadcastsInDim S4096x400 (![0, 1] : Fin 2 → Fin S4096x400.rank)
  bcast_S_S4096x400 : S_.BroadcastsInDim S4096x400 (![] : Fin 0 → Fin S4096x400.rank)
  reducesTo_S4096x39_S4096_d1 : S4096x39.ReducesTo [1] S4096
  reducesTo_S4096x16_S4096_d1 : S4096x16.ReducesTo [1] S4096
  bcast_S1_S4096_0 : S1.BroadcastsInDim S4096 (![0] : Fin 1 → Fin S4096.rank)
  reducesTo_S4096x400_S4096_d1 : S4096x400.ReducesTo [1] S4096
  gather_S39x100000x1_S4096x39x3_S4096x39_n_012_n_n_012_2_111_wf : GatherDims.WF S39x100000x1 S4096x39x3 S4096x39 [] [0, 1, 2] [] [0, 1, 2] [] 2 ![1, 1, 1]
  gather_S39x100000x16_S4096x39x2_S4096x39x16_2_01_n_n_01_2_1116_wf : GatherDims.WF S39x100000x16 S4096x39x2 S4096x39x16 [2] [0, 1] [] [0, 1] [] 2 ![1, 1, 16]
  dot_S4096x624_S624x400_S4096x400_1_0_0_1_n_n_wf : DotDims.WF S4096x624 S624x400 S4096x400 [1] [0] [0] [1] [] []
  dot_S4096x400_S400x400_S4096x400_1_0_0_1_n_n_wf : DotDims.WF S4096x400 S400x400 S4096x400 [1] [0] [0] [1] [] []

variable [Facts₀]

def gather_S39x100000x1_S4096x39x3_S4096x39_n_012_n_n_012_2_111 : GatherDims S39x100000x1 S4096x39x3 S4096x39 where
  offsetDims := []
  collapsedSliceDims := [0, 1, 2]
  operandBatchingDims := []
  startIndicesBatchingDims := []
  startIndexMap := [0, 1, 2]
  indexVectorDim := 2
  sliceSizes := ![1, 1, 1]
  wf := gather_S39x100000x1_S4096x39x3_S4096x39_n_012_n_n_012_2_111_wf
def gather_S39x100000x16_S4096x39x2_S4096x39x16_2_01_n_n_01_2_1116 : GatherDims S39x100000x16 S4096x39x2 S4096x39x16 where
  offsetDims := [2]
  collapsedSliceDims := [0, 1]
  operandBatchingDims := []
  startIndicesBatchingDims := []
  startIndexMap := [0, 1]
  indexVectorDim := 2
  sliceSizes := ![1, 1, 16]
  wf := gather_S39x100000x16_S4096x39x2_S4096x39x16_2_01_n_n_01_2_1116_wf
def dot_S4096x624_S624x400_S4096x400_1_0_0_1_n_n : DotDims S4096x624 S624x400 S4096x400 where
  lhsContracting := [1]
  rhsContracting := [0]
  lhsNonContracting := [0]
  rhsNonContracting := [1]
  lhsBatch := []
  rhsBatch := []
  wf := dot_S4096x624_S624x400_S4096x400_1_0_0_1_n_n_wf
def dot_S4096x400_S400x400_S4096x400_1_0_0_1_n_n : DotDims S4096x400 S400x400 S4096x400 where
  lhsContracting := [1]
  rhsContracting := [0]
  lhsNonContracting := [0]
  rhsNonContracting := [1]
  lhsBatch := []
  rhsBatch := []
  wf := dot_S4096x400_S400x400_S4096x400_1_0_0_1_n_n_wf

class Facts : Prop extends Facts₀ where

variable [Facts]
-- ==== Proof.FrameHostK.lean ====
/-
  The host side of the frame of `Kernel`: what every buffer holds when the one launch is entered (the fold of the
  host operations before it over the launch memory), that none of those operations, nor the reshape after the launch,
  writes an argument array, the block of each window at a grid point read off that memory, and the frame statement
  (arguments unchanged, the result buffer at the tail's value) from any run that ends with the launch's arrays at what the proof data computes.
-/
import proofs.«107343_j37538014167469_2_alg».proof.Proof.Gen.Kernel.Launch
import proofs.«107343_j37538014167469_2_alg».proof.Proof.Gen.Kernel.Skeleton
import proofs.«107343_j37538014167469_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The memory at the launch -/

/-- Core `c`'s buffers when the launch is entered: the host operations before it, folded over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations, the launch, the final reshape; so it reduces to the launch continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the launch (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are never written -/

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 0 ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 1 ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 2 ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 3 ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 4 ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 5 ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 6 ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 7 ends as it was. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 8 ends as it was. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether it is fetched there or kept from an earlier
    point (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether it is fetched there or kept from an earlier
    point (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether it is fetched there or kept from an earlier
    point (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether it is fetched there or kept from an earlier
    point (its block index has then not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether it is fetched there or kept from an earlier
    point (its block index has then not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, whether it is fetched there or kept from an earlier
    point (its block index has then not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The final memory -/

/-- From a run that ends with every array of the launch at what the proof data computes and every
    other buffer as the final reshape leaves it: the result buffer holds the reshape's value and the nine argument
    arrays are unchanged. -/
theorem post_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v63) = Pipeline.afterTail₀ cfgs dats 0 (V0 m) [hostOps1] c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v63 (Pipeline.mem_restRefs_of main_v63 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.Kernel.Fr

end
-- ==== Proof.FrameBodyK.lean ====
/-
  The kernel body of `Kernel` as a triple: on whole buffers, the six inputs at given contents and the output at anything,
  it runs to the end leaving the inputs as they were and the output buffer at the one stored value — the sum of the
  pre-activation column and the row sums of the second layer's activations — as a function of the inputs' contents.
-/
import proofs.«107343_j37538014167469_2_alg».proof.Proof.Gen.Kernel.Launch
import proofs.«107343_j37538014167469_2_alg».proof.Proof.Gen.Kernel.Skeleton
import proofs.«107343_j37538014167469_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-buffer rectangles the body reads and writes through -/

abbrev rX : Rect S1024x624 := Rect.unit (s := S1024x624) ![0, 0] S1024x624.size inb_S1024x624_S1024x624_0_0
abbrev rW1 : Rect S624x400 := Rect.unit (s := S624x400) ![0, 0] S624x400.size inb_S624x400_S624x400_0_0
abbrev rB : Rect S1x400 := Rect.unit (s := S1x400) ![0, 0] S1x400.size inb_S1x400_S1x400_0_0
abbrev rW2 : Rect S400x400 := Rect.unit (s := S400x400) ![0, 0] S400x400.size inb_S400x400_S400x400_0_0
abbrev rCol : Rect S1024x1 := Rect.unit (s := S1024x1) ![0, 0] S1024x1.size inb_S1024x1_S1024x1_0_0

/-- What the output buffer holds after the body, from the six input buffers' contents: its one store. -/
def outCol (x0 : Vec F S1024x624 .bf16) (x1 : Vec F S1024x1 .f32) (x2 : Vec F S624x400 .bf16) (x3 : Vec F S1x400 .f32)
    (x4 : Vec F S400x400 .bf16) (x5 : Vec F S1x400 .f32) : Vec F S1024x1 .f32 :=
  View.canon [⟨rCol, k0_pay1 (View.ld x0 rX) (View.ld x2 rW1) (View.ld x3 rB) (View.ld x4 rW2) (View.ld x5 rB) (View.ld x1 rCol)⟩]

/-- The one store covers the buffer. -/
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body's triple. -/
theorem sound_kernel (c : Dev nD) (E : Set ℕ) (i : grid0.Coords)
    (arg1 : Memref sig .tc .vmem S1024x624 .bf16) (harg1 : arg1.IsWhole) (arg2 : Memref sig .tc .vmem S1024x1 .f32) (harg2 : arg2.IsWhole)
    (arg3 : Memref sig .tc .vmem S624x400 .bf16) (harg3 : arg3.IsWhole) (arg4 : Memref sig .tc .vmem S1x400 .f32) (harg4 : arg4.IsWhole)
    (arg5 : Memref sig .tc .vmem S400x400 .bf16) (harg5 : arg5.IsWhole) (arg6 : Memref sig .tc .vmem S1x400 .f32) (harg6 : arg6.IsWhole)
    (arg7 : Memref sig .tc .vmem S1024x1 .f32) (harg7 : arg7.IsWhole)
    (x0 : Vec F S1024x624 .bf16) (x1 : Vec F S1024x1 .f32) (x2 : Vec F S624x400 .bf16) (x3 : Vec F S1x400 .f32)
    (x4 : Vec F S400x400 .bf16) (x5 : Vec F S1x400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outCol x0 x1 x2 x3 x4 x5)) -∗ K ⟨⟩))
      ⊢ wp frame (wpE (defs₀ (F := F)) Variants.none c none) E (cc0__deepfm_kernel i arg1 harg1 arg2 harg2 arg3 harg3 arg4 harg4 arg5 harg5 arg6 harg6 arg7 harg7) K := by
  simp only [cc0__deepfm_kernel_eq_skeleton]; unfold cc0__deepfm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverCol _)

end Cert.Kernel.Fr

end
-- ==== Proof.FrameRunK.lean ====
/-
  The frame of `Kernel`: the proof data of its one launch (after the body at a grid point each input buffer holds its
  block and the output buffer the stored column computed from the six input blocks), the body's obligation at every point,
  and the run: the program terminates without a fault, the arrays of the launch end at what the proof data computes, and
  the argument arrays end unchanged.
-/
import proofs.«107343_j37538014167469_2_alg».proof.Proof.FrameHostK
import proofs.«107343_j37538014167469_2_alg».proof.Proof.FrameBodyK

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the launch on core `c`: the arrays as the launch finds them; after the body at point `t` each
    input's buffer at its block and the output's at the stored column of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outCol (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outCol (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution terminates; every array of the launch ends at what the proof data computes and every
    other buffer as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer named and the nine argument arrays unchanged. -/
theorem run_post : θ_run defs (onTc (τ := τ) (main (F := F))) ⟨m, fun _ => 0, ρ⟩ (fun r => ∀ c : Dev nD,
      r.2.mem ((c.tc : Thread nD τ).loc main_v63) = Pipeline.afterTail₀ cfgs (dats m) 0 (V0 m) [hostOps1] c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  post_of m ρ (dats m) (run_main m ρ)

/-- The frame: the program runs to the end and the nine argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_post m ρ)

end Cert.Kernel.Fr

end
-- ==== Proof.FrameHostKI.lean ====
/-
  The host side of the frame of `KernelIdeal`: what every buffer holds when the one launch is entered (the fold of the
  host operations before it over the launch memory), that none of those operations, nor the reshape after the launch,
  writes an argument array, the block of each window at a grid point read off that memory, and the frame statement
  (arguments unchanged, the result buffer at the tail's value) from any run that ends with the launch's arrays at what the proof data computes.
-/
import proofs.«107343_j37538014167469_2_alg».proof.Proof.Gen.KernelIdeal.Launch
import proofs.«107343_j37538014167469_2_alg».proof.Proof.Gen.KernelIdeal.Skeleton
import proofs.«107343_j37538014167469_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The memory at the launch -/

/-- Core `c`'s buffers when the launch is entered: the host operations before it, folded over the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations, the launch, the final reshape; so it reduces to the launch continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the launch (it writes the result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are never written -/

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 0 ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 1 ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 2 ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 3 ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 4 ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 5 ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 6 ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 7 ends as it was. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Nor does the reshape after it: argument 8 ends as it was. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether it is fetched there or kept from an earlier
    point (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether it is fetched there or kept from an earlier
    point (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether it is fetched there or kept from an earlier
    point (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether it is fetched there or kept from an earlier
    point (its block index has then not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether it is fetched there or kept from an earlier
    point (its block index has then not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, whether it is fetched there or kept from an earlier
    point (its block index has then not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The final memory -/

/-- From a run that ends with every array of the launch at what the proof data computes and every
    other buffer as the final reshape leaves it: the result buffer holds the reshape's value and the nine argument
    arrays are unchanged. -/
theorem post_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v63) = Pipeline.afterTail₀ cfgs dats 0 (V0 m) [hostOps1] c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v63 (Pipeline.mem_restRefs_of main_v63 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.KernelIdeal.Fr

end
-- ==== Proof.FrameBodyKI.lean ====
/-
  The kernel body of `KernelIdeal` as a triple: on whole buffers, the six inputs at given contents and the output at anything,
  it runs to the end leaving the inputs as they were and the output buffer at the one stored value — the sum of the
  pre-activation column and the row sums of the second layer's activations — as a function of the inputs' contents.
-/
import proofs.«107343_j37538014167469_2_alg».proof.Proof.Gen.KernelIdeal.Launch
import proofs.«107343_j37538014167469_2_alg».proof.Proof.Gen.KernelIdeal.Skeleton
import proofs.«107343_j37538014167469_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-buffer rectangles the body reads and writes through -/

abbrev rX : Rect S1024x624 := Rect.unit (s := S1024x624) ![0, 0] S1024x624.size inb_S1024x624_S1024x624_0_0
abbrev rW1 : Rect S624x400 := Rect.unit (s := S624x400) ![0, 0] S624x400.size inb_S624x400_S624x400_0_0
abbrev rB : Rect S1x400 := Rect.unit (s := S1x400) ![0, 0] S1x400.size inb_S1x400_S1x400_0_0
abbrev rW2 : Rect S400x400 := Rect.unit (s := S400x400) ![0, 0] S400x400.size inb_S400x400_S400x400_0_0
abbrev rCol : Rect S1024x1 := Rect.unit (s := S1024x1) ![0, 0] S1024x1.size inb_S1024x1_S1024x1_0_0

/-- What the output buffer holds after the body, from the six input buffers' contents: its one store. -/
def outCol (x0 : Vec F S1024x624 .bf16) (x1 : Vec F S1024x1 .f32) (x2 : Vec F S624x400 .bf16) (x3 : Vec F S1x400 .f32)
    (x4 : Vec F S400x400 .bf16) (x5 : Vec F S1x400 .f32) : Vec F S1024x1 .f32 :=
  View.canon [⟨rCol, k0_pay1 (View.ld x0 rX) (View.ld x2 rW1) (View.ld x3 rB) (View.ld x4 rW2) (View.ld x5 rB) (View.ld x1 rCol)⟩]

/-- The one store covers the buffer. -/
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body's triple. -/
theorem sound_kernel (c : Dev nD) (E : Set ℕ) (i : grid0.Coords)
    (arg1 : Memref sig .tc .vmem S1024x624 .bf16) (harg1 : arg1.IsWhole) (arg2 : Memref sig .tc .vmem S1024x1 .f32) (harg2 : arg2.IsWhole)
    (arg3 : Memref sig .tc .vmem S624x400 .bf16) (harg3 : arg3.IsWhole) (arg4 : Memref sig .tc .vmem S1x400 .f32) (harg4 : arg4.IsWhole)
    (arg5 : Memref sig .tc .vmem S400x400 .bf16) (harg5 : arg5.IsWhole) (arg6 : Memref sig .tc .vmem S1x400 .f32) (harg6 : arg6.IsWhole)
    (arg7 : Memref sig .tc .vmem S1024x1 .f32) (harg7 : arg7.IsWhole)
    (x0 : Vec F S1024x624 .bf16) (x1 : Vec F S1024x1 .f32) (x2 : Vec F S624x400 .bf16) (x3 : Vec F S1x400 .f32)
    (x4 : Vec F S400x400 .bf16) (x5 : Vec F S1x400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outCol x0 x1 x2 x3 x4 x5)) -∗ K ⟨⟩))
      ⊢ wp frame (wpE (defs₀ (F := F)) Variants.none c none) E (cc0__deepfm_kernel i arg1 harg1 arg2 harg2 arg3 harg3 arg4 harg4 arg5 harg5 arg6 harg6 arg7 harg7) K := by
  simp only [cc0__deepfm_kernel_eq_skeleton]; unfold cc0__deepfm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverCol _)

end Cert.KernelIdeal.Fr

end
-- ==== Proof.FrameRunKI.lean ====
/-
  The frame of `KernelIdeal`: the proof data of its one launch (after the body at a grid point each input buffer holds its
  block and the output buffer the stored column computed from the six input blocks), the body's obligation at every point,
  and the run: the program terminates without a fault, the arrays of the launch end at what the proof data computes, and
  the argument arrays end unchanged.
-/
import proofs.«107343_j37538014167469_2_alg».proof.Proof.FrameHostKI
import proofs.«107343_j37538014167469_2_alg».proof.Proof.FrameBodyKI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the launch on core `c`: the arrays as the launch finds them; after the body at point `t` each
    input's buffer at its block and the output's at the stored column of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outCol (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outCol (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution terminates; every array of the launch ends at what the proof data computes and every
    other buffer as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer named and the nine argument arrays unchanged. -/
theorem run_post : θ_run defs (onTc (τ := τ) (main (F := F))) ⟨m, fun _ => 0, ρ⟩ (fun r => ∀ c : Dev nD,
      r.2.mem ((c.tc : Thread nD τ).loc main_v63) = Pipeline.afterTail₀ cfgs (dats m) 0 (V0 m) [hostOps1] c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  post_of m ρ (dats m) (run_main m ρ)

/-- The frame: the program runs to the end and the nine argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_post m ρ)

end Cert.KernelIdeal.Fr

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibDenseRelu.lean ====
/-
  Dense layers with a rectifier, over the extended reals, for any extents.

  * The plain matrix product [M, K] × [K, N] → [M, N] into an accumulator that is zero everywhere, read at an entry:
    entry (p, n) is ∑ k, l (p, k) · r (k, n), for any dimension record with the plain axis lists.
  * One dense layer: max (x · w + b, z) at entry (p, n), the bias a [1, N] row broadcast down the rows, the floor `z`
    a splat scalar: max (∑ k, x (p, k) · w (k, n) + b (0, n), z).
  * Two such layers followed by the sum of each row, kept as a column: row p of the result is
    ∑ j, max (∑ k, max (∑ l, x (p, l) · w₁ (l, k) + b₁ (0, k), z) · w₂ (k, j) + b₂ (0, j), z).
  No entry needs to be finite: only the definitions of the operations are used, no law of arithmetic.
-/
import proofs.«107343_j37538014167469_2_alg».proof.Proof.LibRank2
import proofs.«107343_j37538014167469_2_alg».proof.Proof.LibColumnCast
import Idealize.ShloMosaic.PureOps.Ideal.Laws
import Idealize.ShloMosaic.Lib.ValueIdx
import Idealize.ShloMosaic.Lib.ValueLayout
import Idealize.ShloMosaic.Lib.Pipeline.Value

noncomputable section

namespace Cert.LibDenseRelu

open Idealize.ShloMosaic Idealize.ShloMosaic.ValueIdx

/-! ## The plain product at an entry -/

section plain
variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- One dense layer with a rectifier at entry (p, n): the product plus the bias row, floored at the splat scalar. -/
theorem relu_dense_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (zb : BitVec 32) (p : Fin M) (n : Fin N) :
    maximumf (addf (matmul d prec x w (constant ⟨2, ![M, N]⟩ .f32 0x00000000#32)) (broadcastTo ⟨2, ![M, N]⟩ b hb))
        (broadcast ⟨2, ![M, N]⟩ (Scalar.ofBits (F := Ideal) .f32 zb)) (ix2 p n)
      = max (∑ k : Fin K, x (ix2 p k) * w (ix2 k n) + b (ix2 (0 : Fin 1) n)) (Ideal.ofBits .f32 zb) := by
  show max (FloatOps.matmul d prec x w (constant ⟨2, ![M, N]⟩ .f32 0x00000000#32) (ix2 p n) + broadcastTo ⟨2, ![M, N]⟩ b hb (ix2 p n))
      (Ideal.ofBits .f32 zb) = _
  rw [matmul_plain_zero_apply d h1 h2 h3 h4 h5 h6, broadcastTo_1b_ab_apply]

end plain

/-! ## Two layers and the row sums -/

/-- Row `r` of: two dense layers, each floored at `z`, then the sum along the row. -/
def mlpRowSum {B K H : ℕ} (z : EReal) (X : (⟨2, ![B, K]⟩ : Shape).Idx → EReal) (W1 : (⟨2, ![K, H]⟩ : Shape).Idx → EReal)
    (b1 : (⟨2, ![1, H]⟩ : Shape).Idx → EReal) (W2 : (⟨2, ![H, H]⟩ : Shape).Idx → EReal) (b2 : (⟨2, ![1, H]⟩ : Shape).Idx → EReal)
    (r : Fin B) : EReal :=
  ∑ j : Fin H, max (∑ k : Fin H, max (∑ l : Fin K, X (ix2 r l) * W1 (ix2 l k) + b1 (ix2 (0 : Fin 1) k)) z * W2 (ix2 k j)
    + b2 (ix2 (0 : Fin 1) j)) z

/-- The vector computation — product, bias, rectifier, change of format, product, bias, rectifier, sum over the last
    axis, the sums kept as a column — read at row `p`. -/
theorem mlp_rowsum_apply {T K H : ℕ} {φx φw : FTy}
    (d1 : DotDims ⟨2, ![T, K]⟩ ⟨2, ![K, H]⟩ ⟨2, ![T, H]⟩) (ha1 : d1.lhsContracting = [1]) (ha2 : d1.rhsContracting = [0]) (ha3 : d1.lhsNonContracting = [0])
    (ha4 : d1.rhsNonContracting = [1]) (ha5 : d1.lhsBatch = []) (ha6 : d1.rhsBatch = [])
    (d2 : DotDims ⟨2, ![T, H]⟩ ⟨2, ![H, H]⟩ ⟨2, ![T, H]⟩) (hb1 : d2.lhsContracting = [1]) (hb2 : d2.rhsContracting = [0]) (hb3 : d2.lhsNonContracting = [0])
    (hb4 : d2.rhsNonContracting = [1]) (hb5 : d2.lhsBatch = []) (hb6 : d2.rhsBatch = [])
    (x : FVec Ideal ⟨2, ![T, K]⟩ φx) (w1 : FVec Ideal ⟨2, ![K, H]⟩ φw) (b1 : FVec Ideal ⟨2, ![1, H]⟩ .f32)
    (w2 : FVec Ideal ⟨2, ![H, H]⟩ φw) (b2 : FVec Ideal ⟨2, ![1, H]⟩ .f32)
    (hb : (⟨2, ![1, H]⟩ : Shape).Broadcasts ⟨2, ![T, H]⟩) (hlt : FTy.bits .bf16 < FTy.bits .f32)
    (hr : (⟨2, ![T, H]⟩ : Shape).Reduces [1] ⟨1, ![T]⟩) (hφ : FKind.Formats .f32)
    (hacc : (0x00000000#32 : BitVec 32) = FKind.add.neutral .f32 hφ)
    (hsc : (⟨1, ![T]⟩ : Shape).ShapeCasts ⟨2, ![T, 1]⟩) (p : Fin T) (u : Fin 1) :
    shapeCast ⟨2, ![T, 1]⟩ (multiReduction .add [1] ⟨1, ![T]⟩
        (maximumf (addf (matmul d2 none (truncf .bf16
            (maximumf (addf (matmul d1 none x w1 (constant ⟨2, ![T, H]⟩ .f32 0x00000000#32)) (broadcastTo ⟨2, ![T, H]⟩ b1 hb))
              (broadcast ⟨2, ![T, H]⟩ (Scalar.ofBits (F := Ideal) .f32 0x00000000#32))) hlt)
            w2 (constant ⟨2, ![T, H]⟩ .f32 0x00000000#32)) (broadcastTo ⟨2, ![T, H]⟩ b2 hb))
          (broadcast ⟨2, ![T, H]⟩ (Scalar.ofBits (F := Ideal) .f32 0x00000000#32)))
        0x00000000#32 hr hφ hacc) hsc (ix2 p u)
      = mlpRowSum (Ideal.ofBits .f32 0x00000000#32) x w1 b1 w2 b2 p := by
  refine (Cert.LibColumnCast.shapeCast_a_a1_apply _ hsc p u).trans ?_
  refine (Cert.LibRank2.sum_last _ _ hr hφ hacc p).trans ?_
  refine Finset.sum_congr rfl fun j _ => ?_
  refine (relu_dense_apply d2 hb1 hb2 hb3 hb4 hb5 hb6 none _ w2 b2 hb 0x00000000#32 p j).trans ?_
  refine congrArg (max · _) (congrArg (· + _) (Finset.sum_congr rfl fun k _ => congrArg (· * _) ?_))
  exact (truncf_apply _ hlt (ix2 p k)).trans (relu_dense_apply d1 ha1 ha2 ha3 ha4 ha5 ha6 none x w1 b1 hb 0x00000000#32 p k)

/-- The row value depends on the input only through that row: two inputs that agree along their rows `r` and `r'`
    give the same value there. -/
theorem mlpRowSum_congr {B B' K H : ℕ} (z : EReal) (X : (⟨2, ![B, K]⟩ : Shape).Idx → EReal) (X' : (⟨2, ![B', K]⟩ : Shape).Idx → EReal)
    (W1 : (⟨2, ![K, H]⟩ : Shape).Idx → EReal) (b1 : (⟨2, ![1, H]⟩ : Shape).Idx → EReal) (W2 : (⟨2, ![H, H]⟩ : Shape).Idx → EReal)
    (b2 : (⟨2, ![1, H]⟩ : Shape).Idx → EReal) (r : Fin B) (r' : Fin B') (h : ∀ l : Fin K, X (ix2 r l) = X' (ix2 r' l)) :
    mlpRowSum z X W1 b1 W2 b2 r = mlpRowSum z X' W1 b1 W2 b2 r' := by
  unfold mlpRowSum
  simp only [h]

/-- The same, the biases also allowed to differ away from the one row that is read. -/
theorem mlpRowSum_congr_all {B B' K H : ℕ} (z : EReal) (X : (⟨2, ![B, K]⟩ : Shape).Idx → EReal) (X' : (⟨2, ![B', K]⟩ : Shape).Idx → EReal)
    (W1 W1' : (⟨2, ![K, H]⟩ : Shape).Idx → EReal) (b1 b1' : (⟨2, ![1, H]⟩ : Shape).Idx → EReal)
    (W2 W2' : (⟨2, ![H, H]⟩ : Shape).Idx → EReal) (b2 b2' : (⟨2, ![1, H]⟩ : Shape).Idx → EReal) (r : Fin B) (r' : Fin B')
    (hX : ∀ l : Fin K, X (ix2 r l) = X' (ix2 r' l)) (hW1 : W1 = W1')
    (hb1 : ∀ k : Fin H, b1 (ix2 (0 : Fin 1) k) = b1' (ix2 (0 : Fin 1) k)) (hW2 : W2 = W2')
    (hb2 : ∀ j : Fin H, b2 (ix2 (0 : Fin 1) j) = b2' (ix2 (0 : Fin 1) j)) :
    mlpRowSum z X W1 b1 W2 b2 r = mlpRowSum z X' W1' b1' W2' b2' r' := by
  subst hW1 hW2
  unfold mlpRowSum
  simp only [hX, hb1, hb2]

/-! ## Dropping a trailing unit axis -/

/-- An `[a, 1]` column cast to a vector of length `a` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibDenseRelu

end
-- ==== Proof.ValueKI.lean ====
/-
  What the idealized kernel's result buffer holds, read at a batch row.

  The launch writes back, at grid point t, rows 1024·t … 1024·t + 1023 of a 4096 × 1 column. Row p of that block is the
  pre-activation entry of row 1024·t + p plus the row sum of the two-layer rectified network applied to row 1024·t + p of
  the flattened embeddings; the weights and biases are the same whole arrays at every point. The four blocks cover the
  column, so the column after the launch is that one function of the six arrays the launch reads, and the final reshape
  drops the unit axis.
-/
import proofs.«107343_j37538014167469_2_alg».proof.Proof.FrameRunKI
import proofs.«107343_j37538014167469_2_alg».proof.Proof.LibDenseRelu
import Idealize.ShloMosaic.Lib.Pipeline.Value
import Idealize.ShloMosaic.Lib.StableHlo.Run
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.LibDenseRelu

variable (m : (ℓ : Loc nD τ sig) → Buf (Elt Ideal) ℓ) (ρ : Dev nD → PrngReg)

theorem hz : (![0, 0] : Fin 2 → Nat) = fun _ => 0 := funext fun a => by fin_cases a <;> rfl

/-! ## The body's stored value at an index -/

/-- Row `p` of the stored column: the pre-activation entry plus the network's row sum. -/
theorem pay_apply (v0 : Vec Ideal S1024x624 .bf16) (v2 : Vec Ideal S624x400 .bf16) (v5 : Vec Ideal S1x400 .f32)
    (v11 : Vec Ideal S400x400 .bf16) (v15 : Vec Ideal S1x400 .f32) (v23 : Vec Ideal S1024x1 .f32) (p : Fin 1024) (u : Fin 1) :
    k0_pay1 (F := Ideal) v0 v2 v5 v11 v15 v23 (ix2 p u)
      = v23 (ix2 p u) + mlpRowSum (Ideal.ofBits .f32 0x00000000#32) v0 v2 v5 v11 v15 p := by
  unfold k0_pay1
  dsimp only
  refine (addf_apply _ _ (ix2 p u)).trans ?_
  refine congrArg₂ (· + ·) (congrFun (shapeCast_self v23 _) _) ?_
  refine (mlp_rowsum_apply dot_S1024x624_S624x400_S1024x400_1_0_0_1_n_n rfl rfl rfl rfl rfl rfl
    dot_S1024x400_S400x400_S1024x400_1_0_0_1_n_n rfl rfl rfl rfl rfl rfl
    _ _ _ _ _ Facts₀.broadcasts_S1x400_S1024x400 Facts₀.bitsLt_bf16_f32 Facts₀.reduces_S1024x400_S1024 (.inl rfl) rfl
    Facts₀.shapeCasts_S1024_S1024x1 p u).trans ?_
  rw [shapeCast_self, shapeCast_self, shapeCast_self, shapeCast_self, shapeCast_self]

/-! ## The windows' block indices over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks as parts of the arrays the launch reads -/

/-- Block `t` of the flattened embeddings is rows 1024·t … of the array. -/
theorem blk0 (c : Dev nD) (t : Fin cfg0.N) (y : S1024x624.Idx) (k : S4096x624.Idx)
    (hk0 : (k 0).val = t.val * 1024 + (y 0).val) (hk1 : (k 1).val = (y 1).val) :
    (iblk m c 0 t : Vec Ideal S1024x624 .bf16) y = V m c main_v57 k := by
  obtain ⟨e0, e1, -⟩ := idx_facts t
  unfold iblk
  rw [View.read_apply]
  show V m c main_v57 _ = V m c main_v57 _
  refine congrArg (V m c main_v57) (funext fun a => Fin.ext ?_)
  match a with
  | ⟨0, _⟩ => show win0_0.index t 0 * 1024 + 1 * (y 0).val = (k 0).val; rw [e0, hk0]; omega
  | ⟨1, _⟩ => show win0_0.index t 1 * 624 + 1 * (y 1).val = (k 1).val; rw [e1, hk1]; omega

/-- Block `t` of the pre-activation column is rows 1024·t … of the column. -/
theorem blk1 (c : Dev nD) (t : Fin cfg0.N) (y : S1024x1.Idx) (k : S4096x1.Idx)
    (hk0 : (k 0).val = t.val * 1024 + (y 0).val) (hk1 : (k 1).val = (y 1).val) :
    (iblk m c 1 t : Vec Ideal S1024x1 .f32) y = V m c main_v56 k := by
  obtain ⟨-, -, e0, e1, -⟩ := idx_facts t
  unfold iblk
  rw [View.read_apply]
  show V m c main_v56 _ = V m c main_v56 _
  refine congrArg (V m c main_v56) (funext fun a => Fin.ext ?_)
  match a with
  | ⟨0, _⟩ => show win0_1.index t 0 * 1024 + 1 * (y 0).val = (k 0).val; rw [e0, hk0]; omega
  | ⟨1, _⟩ => show win0_1.index t 1 * 1 + 1 * (y 1).val = (k 1).val; rw [e1, hk1]; omega

/-- The weights and biases are whole at every point. -/
theorem blk2 (c : Dev nD) (t : Fin cfg0.N) : (iblk m c 2 t : Vec Ideal S624x400 .bf16) = V m c main_v58 := by
  obtain ⟨-, -, -, -, e0, e1, -⟩ := idx_facts t
  funext y
  unfold iblk
  rw [View.read_apply]
  show V m c main_v58 _ = V m c main_v58 _
  refine congrArg (V m c main_v58) (funext fun a => Fin.ext ?_)
  match a with
  | ⟨0, _⟩ => show win0_2.index t 0 * 624 + 1 * (y 0).val = (y 0).val; rw [e0]; omega
  | ⟨1, _⟩ => show win0_2.index t 1 * 400 + 1 * (y 1).val = (y 1).val; rw [e1]; omega

theorem blk3 (c : Dev nD) (t : Fin cfg0.N) : (iblk m c 3 t : Vec Ideal S1x400 .f32) = V m c main_v60 := by
  obtain ⟨-, -, -, -, -, -, e0, e1, -⟩ := idx_facts t
  funext y
  unfold iblk
  rw [View.read_apply]
  show V m c main_v60 _ = V m c main_v60 _
  refine congrArg (V m c main_v60) (funext fun a => Fin.ext ?_)
  match a with
  | ⟨0, _⟩ => show win0_3.index t 0 * 1 + 1 * (y 0).val = (y 0).val; rw [e0]; omega
  | ⟨1, _⟩ => show win0_3.index t 1 * 400 + 1 * (y 1).val = (y 1).val; rw [e1]; omega

theorem blk4 (c : Dev nD) (t : Fin cfg0.N) : (iblk m c 4 t : Vec Ideal S400x400 .bf16) = V m c main_v59 := by
  obtain ⟨-, -, -, -, -, -, -, -, e0, e1, -⟩ := idx_facts t
  funext y
  unfold iblk
  rw [View.read_apply]
  show V m c main_v59 _ = V m c main_v59 _
  refine congrArg (V m c main_v59) (funext fun a => Fin.ext ?_)
  match a with
  | ⟨0, _⟩ => show win0_4.index t 0 * 400 + 1 * (y 0).val = (y 0).val; rw [e0]; omega
  | ⟨1, _⟩ => show win0_4.index t 1 * 400 + 1 * (y 1).val = (y 1).val; rw [e1]; omega

theorem blk5 (c : Dev nD) (t : Fin cfg0.N) : (iblk m c 5 t : Vec Ideal S1x400 .f32) = V m c main_v61 := by
  obtain ⟨-, -, -, -, -, -, -, -, -, -, e0, e1, -⟩ := idx_facts t
  funext y
  unfold iblk
  rw [View.read_apply]
  show V m c main_v61 _ = V m c main_v61 _
  refine congrArg (V m c main_v61) (funext fun a => Fin.ext ?_)
  match a with
  | ⟨0, _⟩ => show win0_5.index t 0 * 1 + 1 * (y 0).val = (y 0).val; rw [e0]; omega
  | ⟨1, _⟩ => show win0_5.index t 1 * 400 + 1 * (y 1).val = (y 1).val; rw [e1]; omega

/-! ## The whole column -/

/-- A 4096 × 1 column: a given column plus the network's row sums. -/
def colVal (pre : S4096x1.Idx → EReal) (sf : S4096x624.Idx → EReal) (w1 : S624x400.Idx → EReal) (b1 : S1x400.Idx → EReal)
    (w2 : S400x400.Idx → EReal) (b2 : S1x400.Idx → EReal) : S4096x1.Idx → EReal := fun i =>
  pre i + mlpRowSum (Ideal.ofBits .f32 0x00000000#32) sf w1 b1 w2 b2 (⟨(i 0).val, (i 0).isLt⟩ : Fin 4096)

/-- The column after the launch, as one function of the six arrays the launch reads. -/
def column (c : Dev nD) : S4096x1.Idx → EReal :=
  colVal (V m c main_v56) (V m c main_v57) (V m c main_v58) (V m c main_v60) (V m c main_v59) (V m c main_v61)

/-- Row `p` of what point `t` stores is row 1024·t + p of the column. -/
theorem point_eq (c : Dev nD) (t : Fin cfg0.N) (p : Fin 1024) (u : Fin 1) (k : S4096x1.Idx)
    (hk0 : (k 0).val = t.val * 1024 + p.val) (hk1 : (k 1).val = u.val) :
    k0_pay1 (F := Ideal) (iblk m c 0 t) (iblk m c 2 t) (iblk m c 3 t) (iblk m c 4 t) (iblk m c 5 t) (iblk m c 1 t) (ix2 p u)
      = column m c k := by
  refine (pay_apply (iblk m c 0 t) (iblk m c 2 t) (iblk m c 3 t) (iblk m c 4 t) (iblk m c 5 t) (iblk m c 1 t) p u).trans ?_
  rw [blk2 m c t, blk3 m c t, blk4 m c t, blk5 m c t]
  unfold column colVal
  refine congrArg₂ (· + ·) (blk1 m c t (ix2 p u) k hk0 hk1) ?_
  exact mlpRowSum_congr _ _ _ _ _ _ _ p _ fun l => blk0 m c t (ix2 p l) (ix2 _ l) hk0 rfl

/-- What point `t` writes back is block `t` of the column. -/
theorem flushed_point (c : Dev nD) (t : Fin cfg0.N) (y : S1024x1.Idx) :
    k0_pay1 (F := Ideal) (iblk m c 0 t) (iblk m c 2 t) (iblk m c 3 t) (iblk m c 4 t) (iblk m c 5 t) (iblk m c 1 t) y
      = column m c (((cfg0.win 6).blk t).view.emb y) := by
  obtain ⟨p, u, rfl⟩ : ∃ (p : Fin 1024) (u : Fin 1), y = ix2 p u := ⟨y 0, y 1, eq_ix2 y⟩
  obtain ⟨-, -, -, -, -, -, -, -, -, -, -, -, e0, e1⟩ := idx_facts t
  refine point_eq m c t p u _ ?_ ?_
  · show win0_6.index t 0 * 1024 + 1 * p.val = t.val * 1024 + p.val; rw [e0]; omega
  · show win0_6.index t 1 * 1 + 1 * u.val = u.val; rw [e1]; omega

theorem flushed_eq (c : Dev nD) (t : Fin cfg0.N) :
    (dats m 0 c).flushed 6 t = ((cfg0.win 6).blk t).view.read (Elt Ideal) (column m c) := by
  show (cfg0.win 6).cut (grid0.coords t) ((dats m 0 c).after 6 t) = _
  rw [after0_6]
  unfold outCol
  rw [View.canon_unit_zero hz]
  simp only [View.ld_unit_zero (S := S1024x624) hz, View.ld_unit_zero (S := S624x400) hz, View.ld_unit_zero (S := S1x400) hz,
    View.ld_unit_zero (S := S400x400) hz, View.ld_unit_zero (S := S1024x1) hz]
  funext j
  exact flushed_point m c t j

/-- An index of the column is in point `t`'s block iff its row is one of that block's. -/
theorem mem_blk (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v62).slice (win0_6.rect t)).set ↔ _
  rw [View.set_slice_whole, Rect.mem_set_unit]
  exact Iff.rfl

/-- The four blocks cover the column: row r is in block r / 1024. -/
theorem cover (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 4 := N_0
  refine ⟨⟨(i 0).val / 1024, by rw [hN]; omega⟩, flush0_6 _, ?_⟩
  rw [mem_blk]
  obtain ⟨-, -, -, -, -, -, -, -, -, -, -, -, e0, e1⟩ := idx_facts ⟨(i 0).val / 1024, by rw [hN]; omega⟩
  intro a
  match a with
  | ⟨0, _⟩ =>
    show win0_6.index _ 0 * 1024 ≤ (i 0).val ∧ (i 0).val < win0_6.index _ 0 * 1024 + 1024
    rw [e0]; show (i 0).val / 1024 * 1024 ≤ (i 0).val ∧ (i 0).val < (i 0).val / 1024 * 1024 + 1024; omega
  | ⟨1, _⟩ =>
    show win0_6.index _ 1 * 1 ≤ (i 1).val ∧ (i 1).val < win0_6.index _ 1 * 1 + 1
    rw [e1]; omega

/-- The column after the launch. -/
theorem final (c : Dev nD) : (dats m 0 c).arrAt 6 cfg0.N = column m c :=
  (dats m 0 c).arrAt_eq_of_cover 6 (column m c) (fun t _ => flushed_eq m c t) (cover)

end Cert.KernelIdeal.Val

end
-- ==== Proof.TailKI.lean ====
/-
  The idealized kernel's result buffer: the final reshape drops the unit axis of the column the launch wrote, so entry b
  of the result is row b of that column.
-/
import proofs.«107343_j37538014167469_2_alg».proof.Proof.ValueKI

noncomputable section

namespace Cert.KernelIdeal.Val

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Fr Cert.LibDenseRelu

variable (m : (ℓ : Loc nD τ sig) → Buf (Elt Ideal) ℓ) (ρ : Dev nD → PrngReg)

/-- The array the final reshape reads is the column. -/
theorem arr62 (c : Dev nD) :
    Pipeline.withArrays (cfgs 0).spec c (V0 m c) (fun w => (dats m 0 c).arrAt w (cfgs 0).N) (Proc.devRef .tc main_v62) = column m c :=
  (Pipeline.withArrays_arr spec0 launch0.win.arr_inj c _ _ 6).trans (final m c)

/-- The result buffer after the run: the column with its unit axis dropped. -/
theorem tail_eq (c : Dev nD) :
    Pipeline.afterTail₀ cfgs (dats m) 0 (V0 m) [hostOps1] c main_v63
      = shapeCast S4096 (column m c) Facts₀.shapeCasts_S4096x1_S4096 := by
  unfold Pipeline.afterTail₀
  show StableHlo.after hostOps1 _ (Proc.devRef .tc main_v63) = _
  after_results
  funext i
  show shapeCast S4096 (Pipeline.withArrays (cfgs 0).spec c (V0 m c) (fun w => (dats m 0 c).arrAt w (cfgs 0).N) (Proc.devRef .tc main_v62))
    Facts₀.shapeCasts_S4096x1_S4096 i = _
  rw [arr62]

/-- Entry `b` of the result is row `b` of the column. -/
theorem result_apply (c : Dev nD) (b : Fin 4096) :
    Pipeline.afterTail₀ cfgs (dats m) 0 (V0 m) [hostOps1] c main_v63 (ix1 b) = column m c (ix2 b (0 : Fin 1)) := by
  rw [tail_eq]
  exact shapeCast_a1_a_apply _ _ b

end Cert.KernelIdeal.Val

end
-- ==== Proof.LibConcatThree.lean ====
/-
  A host operation over a literal family of three operand buffers (a concatenation of three arrays): what it writes,
  with each operand's contents read at that operand's own buffer, so that the operands' own defining operations can be
  opened in turn.
-/
import Idealize.ShloMosaic.Lib.StableHlo.Run

noncomputable section

namespace Cert.LibConcatThree

open Idealize.ShloMosaic Idealize.ShloMosaic.StableHlo

variable {τ : Topo} {sig : RefSig} {Val : EltTy → Type}
variable {x a b y : Ref sig .tc}

/-- The operation's value is its function applied to the three operands' contents, listed one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer left out of the rewriting index. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibConcatThree

end
-- ==== Proof.HostKI.lean ====
/-
  The six arrays the idealized kernel's launch reads, as functions of the program's arguments. The host operations that
  compute them are the reference's own, operation for operation, up to the point where the two programs part: the
  flattened, scaled embeddings; the first-order sum and the factorization-machine sum; the weights and the biases
  unchanged but for a change of format, which is the identity on extended reals, and an added unit axis.
-/
import proofs.«107343_j37538014167469_2_alg».proof.Proof.FrameRunKI
import proofs.«107343_j37538014167469_2_alg».proof.Proof.LibConcatThree
import proofs.«107343_j37538014167469_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.HostVal

open Idealize.ShloMosaic Idealize.ShloMosaic.TcCoe Idealize.SL.Sem Idealize.ShloMosaic.ValueIdx Idealize.ShloMosaic.StableHlo
open Cert.KernelIdeal Cert.KernelIdeal.Gen Cert.KernelIdeal.Fr Cert.LibConcatThree

variable (m : (ℓ : Loc nD τ sig) → Buf (Elt Ideal) ℓ)

set_option maxHeartbeats 4000000 in
/-- The flattened scaled embeddings are the reference's. -/
theorem sf_eq (c : Dev nD) :
    V m c main_v57 = Cert.ReferenceIdeal.Read.val_main_v48 (F := Ideal) (m ((c.tc : Thread nD τ).loc main_arg0)) (m ((c.tc : Thread nD τ).loc main_arg1)) (m ((c.tc : Thread nD τ).loc main_arg3)) := by
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

/-- A 4096 × 1 column: two vectors and a one-entry vector, each broadcast to a column, added in that order. -/
def preCol (a b : S4096.Idx → EReal) (z : S1.Idx → EReal) : FVec Ideal S4096x1 .f32 :=
  addf (addf (broadcastInDim S4096x1 ![0] Facts₀.bcast_S4096_S4096x1_0 a) (broadcastInDim S4096x1 ![0] Facts₀.bcast_S4096_S4096x1_0 b))
    (broadcastInDim S4096x1 ![0, 1] Facts₀.bcast_S1x1_S4096x1_0_1 (broadcastInDim S1x1 ![1] Facts₀.bcast_S1_S1x1_1 z))

set_option maxHeartbeats 4000000 in
/-- The pre-activation column: the first-order sum plus the factorization-machine sum plus the bias, each made a column. -/
theorem pre_eq (c : Dev nD) :
    V m c main_v56 = preCol (Cert.ReferenceIdeal.Read.val_main_v59 (F := Ideal) (m ((c.tc : Thread nD τ).loc main_arg0)) (m ((c.tc : Thread nD τ).loc main_arg1)) (m ((c.tc : Thread nD τ).loc main_arg2)))
      (Cert.ReferenceIdeal.Read.val_main_v60 (F := Ideal) (m ((c.tc : Thread nD τ).loc main_arg0)) (m ((c.tc : Thread nD τ).loc main_arg1)) (m ((c.tc : Thread nD τ).loc main_arg3))) (m ((c.tc : Thread nD τ).loc main_arg8)) := by
  unfold preCol
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem w1_eq (c : Dev nD) : V m c main_v58 = (m ((c.tc : Thread nD τ).loc main_arg4)) := by
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem w2_eq (c : Dev nD) : V m c main_v59 = (m ((c.tc : Thread nD τ).loc main_arg6)) := by
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem b1_eq (c : Dev nD) : V m c main_v60 = shapeCast S1x400 (m ((c.tc : Thread nD τ).loc main_arg5)) Facts₀.shapeCasts_S400_S1x400 := by
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem b2_eq (c : Dev nD) : V m c main_v61 = shapeCast S1x400 (m ((c.tc : Thread nD τ).loc main_arg7)) Facts₀.shapeCasts_S400_S1x400 := by
  dsimp only [V, V0]
  simp only [List.flatten_cons, List.flatten_nil, List.append_nil]
  simp (disch := decide) only [after_cons, after_nil,
      nullary_result', unary_result', binary_result', ternary_result', reshape_result', nary3_result',
      nullary_result_ne', unary_result_ne', binary_result_ne', ternary_result_ne', reshape_result_ne', nary_result_ne']
  rfl

/-- Row `b` of the pre-activation column is the reference's sum of the three terms at `b`. -/
theorem pre_apply (c : Dev nD) (b : Fin 4096) (u : Fin 1) :
    V m c main_v56 (ix2 b u)
      = Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (ix1 b) := by
  rw [pre_eq]
  unfold preCol
  rw [addf_apply, addf_apply, Cert.ReferenceIdeal.Read.val_main_v63_apply, Cert.ReferenceIdeal.Read.val_main_v61_apply, Ideal.addf_def, Ideal.addf_def]
  refine congrArg₂ (· + ·) (congrArg₂ (· + ·) ?_ ?_) ?_
  · exact broadcastInDim_apply _ _ _ (ix2 b u) (ix1 b) (fun a => match a with
      | ⟨0, _⟩ => by show b.val = if (4096 : Nat) = 1 then 0 else b.val; rw [if_neg (by decide)])
  · exact broadcastInDim_apply _ _ _ (ix2 b u) (ix1 b) (fun a => match a with
      | ⟨0, _⟩ => by show b.val = if (4096 : Nat) = 1 then 0 else b.val; rw [if_neg (by decide)])
  · refine (broadcastInDim_apply _ _ _ (ix2 b u) (ix2 (0 : Fin 1) (0 : Fin 1)) (fun a => match a with
      | ⟨0, _⟩ => by show 0 = if (1 : Nat) = 1 then 0 else b.val; rw [if_pos rfl]
      | ⟨1, _⟩ => by show 0 = if (1 : Nat) = 1 then 0 else u.val; rw [if_pos rfl])).trans ?_
    refine (broadcastInDim_apply _ _ _ (ix2 (0 : Fin 1) (0 : Fin 1)) (Cert.ReferenceIdeal.Read.idx_main_v62 (ix1 b)) (fun a => match a with
      | ⟨0, _⟩ => by show 0 = if (1 : Nat) = 1 then 0 else 0; rw [if_pos rfl])).trans ?_
    exact (Cert.ReferenceIdeal.Read.val_main_v62_apply (F := Ideal) (m ((c.tc : Thread nD τ).loc main_arg8)) (ix1 b)).symm

/-- Entry `k` of the first bias row is the reference's. -/
theorem b1_apply (c : Dev nD) (k : Fin 400) :
    V m c main_v60 (ix2 (0 : Fin 1) k) = Cert.ReferenceIdeal.Read.val_main_v50 (F := Ideal) (m ((c.tc : Thread nD τ).loc main_arg5)) (ix2 (0 : Fin 1) k) := by
  rw [b1_eq]
  refine (shapeCast_a_1a_apply _ _ (0 : Fin 1) k).trans ?_
  refine Eq.trans ?_ (Cert.ReferenceIdeal.Read.val_main_v50_apply (F := Ideal) (m ((c.tc : Thread nD τ).loc main_arg5)) (ix2 (0 : Fin 1) k)).symm
  exact congrArg _ (funext fun a => Fin.ext (by match a with | ⟨0, _⟩ => rfl))

/-- Entry `k` of the second bias row is the reference's. -/
theorem b2_apply (c : Dev nD) (k : Fin 400) :
    V m c main_v61 (ix2 (0 : Fin 1) k) = Cert.ReferenceIdeal.Read.val_main_v55 (F := Ideal) (m ((c.tc : Thread nD τ).loc main_arg7)) (ix2 (0 : Fin 1) k) := by
  rw [b2_eq]
  refine (shapeCast_a_1a_apply _ _ (0 : Fin 1) k).trans ?_
  refine Eq.trans ?_ (Cert.ReferenceIdeal.Read.val_main_v55_apply (F := Ideal) (m ((c.tc : Thread nD τ).loc main_arg7)) (ix2 (0 : Fin 1) k)).symm
  exact congrArg _ (funext fun a => Fin.ext (by match a with | ⟨0, _⟩ => rfl))

end Cert.KernelIdeal.HostVal

end
-- ==== Proof.RefSide.lean ====
/-
  The reference's result at a batch row: the first-order sum, the factorization-machine sum and the bias, added in that
  order, plus the row sum of the two-layer rectified network on the row of flattened embeddings — the host's two
  matrix products read as finite sums, its biases as rows broadcast down the batch.
-/
import proofs.«107343_j37538014167469_2_alg».proof.Proof.Gen.ReferenceIdeal.Read
import proofs.«107343_j37538014167469_2_alg».proof.Proof.LibDenseRelu

noncomputable section

namespace Cert.ReferenceIdeal.RefValue

open Cert.ReferenceIdeal Cert.ReferenceIdeal.Gen Cert.ReferenceIdeal.Read Idealize.ShloMosaic Idealize.ShloMosaic.ValueIdx
open Cert.LibDenseRelu

theorem ref_apply (x0 : (⟨S4096x39x1, .i32⟩ : BufTy).Contents (Elt Ideal)) (x1 : (⟨S4096x39x1, .f32⟩ : BufTy).Contents (Elt Ideal))
    (x2 : (⟨S39x100000x1, .f32⟩ : BufTy).Contents (Elt Ideal)) (x3 : (⟨S39x100000x16, .f32⟩ : BufTy).Contents (Elt Ideal))
    (x4 : (⟨S624x400, .f32⟩ : BufTy).Contents (Elt Ideal)) (x5 : (⟨S400, .f32⟩ : BufTy).Contents (Elt Ideal))
    (x6 : (⟨S400x400, .f32⟩ : BufTy).Contents (Elt Ideal)) (x7 : (⟨S400, .f32⟩ : BufTy).Contents (Elt Ideal))
    (x8 : (⟨S1, .f32⟩ : BufTy).Contents (Elt Ideal)) (b : Fin 4096) :
    val_main_v65 (F := Ideal) x0 x1 x2 x3 x4 x5 x6 x7 x8 (ix1 b)
      = val_main_v63 (F := Ideal) x0 x1 x2 x3 x8 (ix1 b)
        + mlpRowSum (Ideal.ofBits .f32 0x00000000#32) (val_main_v48 (F := Ideal) x0 x1 x3) x4 (val_main_v50 (F := Ideal) x5) x6 (val_main_v55 (F := Ideal) x7) b := by
  have e64 : ∀ j : Fin 400, idx_main_v64 (ix1 b) j = ix2 b j := fun j => funext fun a => Fin.ext (by match a with | ⟨0, _⟩ => rfl | ⟨1, _⟩ => rfl)
  have el54 : ∀ j k : Fin 400, lidx_main_v54 (ix2 b j) k = ix2 b k := fun j k => funext fun a => Fin.ext (by match a with | ⟨0, _⟩ => rfl | ⟨1, _⟩ => rfl)
  have er54 : ∀ j k : Fin 400, ridx_main_v54 (ix2 b j) k = ix2 k j := fun j k => funext fun a => Fin.ext (by match a with | ⟨0, _⟩ => rfl | ⟨1, _⟩ => rfl)
  have e56 : ∀ j : Fin 400, idx_main_v56 (ix2 b j) = ix2 (0 : Fin 1) j := fun j => funext fun a => Fin.ext (by match a with | ⟨0, _⟩ => rfl | ⟨1, _⟩ => rfl)
  have el49 : ∀ (k : Fin 400) (l : Fin 624), lidx_main_v49 (ix2 b k) l = ix2 b l := fun k l => funext fun a => Fin.ext (by match a with | ⟨0, _⟩ => rfl | ⟨1, _⟩ => rfl)
  have er49 : ∀ (k : Fin 400) (l : Fin 624), ridx_main_v49 (ix2 b k) l = ix2 l k := fun k l => funext fun a => Fin.ext (by match a with | ⟨0, _⟩ => rfl | ⟨1, _⟩ => rfl)
  have e51 : ∀ k : Fin 400, idx_main_v51 (ix2 b k) = ix2 (0 : Fin 1) k := fun k => funext fun a => Fin.ext (by match a with | ⟨0, _⟩ => rfl | ⟨1, _⟩ => rfl)
  unfold mlpRowSum
  simp only [val_main_v65_apply, val_main_v64_apply, e64, val_main_v58_apply, val_main_v57_apply, val_main_v54_apply, el54, er54,
    val_main_v56_apply, e56, val_main_v53_apply, val_main_v52_apply, val_main_v49_apply, el49, er49, val_main_v51_apply, e51,
    val_main_call0_v0_apply, val_main_call0_cst_apply, val_main_call1_v0_apply, val_main_call1_cst_apply, val_main_cst_12_apply,
    Ideal.addf_def, Ideal.maximumf_def, Ideal.ofBits_def, Ideal.ofBits_zero_f32, zero_add]

end Cert.ReferenceIdeal.RefValue

end
-- ==== Proof.BridgeKI.lean ====
/-
  The idealized kernel against the reference, entry by entry: entry b of the kernel's result is the pre-activation entry of
  row b plus the network's row sum on row b of the flattened embeddings, and the reference's entry b is the same three-term
  sum plus the same row sum, the arrays on the two sides being the same functions of the arguments.
-/
import proofs.«107343_j37538014167469_2_alg».proof.Proof.TailKI
import proofs.«107343_j37538014167469_2_alg».proof.Proof.HostKI
import proofs.«107343_j37538014167469_2_alg».proof.Proof.RefSide

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr Cert.LibDenseRelu

variable (m : (ℓ : Loc nD τ sig) → Buf (Elt Ideal) ℓ) (ρ : Dev nD → PrngReg)

/-- The kernel's result buffer holds the reference's function of the arguments. -/
theorem result_eq (c : Dev nD) :
    Pipeline.afterTail₀ cfgs (dats m) 0 (V0 m) [hostOps1] c main_v63
      = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, rfl⟩ : ∃ b : Fin 4096, i = ix1 b := ⟨i 0, eq_ix1 i⟩
  rw [result_apply, Cert.ReferenceIdeal.RefValue.ref_apply]
  unfold column colVal
  refine congrArg₂ (· + ·) (HostVal.pre_apply m c b 0) ?_
  exact mlpRowSum_congr_all _ _ _ _ _ _ _ _ _ _ _ _ b (fun l => congrFun (HostVal.sf_eq m c) (ix2 b l)) (HostVal.w1_eq m c)
    (HostVal.b1_apply m c) (HostVal.w2_eq m c) (HostVal.b2_apply m c)

/-- The idealized kernel runs to the end with its result at the reference's function of the arguments, the arguments
    unchanged. -/
theorem run : θ_run defs (onTc (τ := τ) (main (F := Ideal))) ⟨m, fun _ => 0, ρ⟩ (fun r => ∀ c : Dev nD,
      r.2.mem ((c.tc : Thread nD τ).loc main_v63)
        = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m c), (h c).2⟩) (run_post m ρ)

end Cert.KernelIdeal.Val

end
-- ==== Proof.lean ====
/-
  The certificate. The kernel gathers embedding rows on the host, scales them, forms the first-order sum and the
  factorization-machine sum, and hands a pre-activation column and the flattened embeddings to one launch that adds, row by
  row, the row sum of a two-layer rectified network; the reference does all of it on the host. Over the extended reals the
  two results agree entry by entry: the launch's blocks are rows of one whole-array function, the two matrix products are
  the same finite sums, a change of float format is the identity, and the three-term sum is grouped the same way on both
  sides, so no arithmetic law beyond the definitions is used and the inputs' finiteness is not needed.
  The three frames: each program runs to the end without a fault and leaves its arguments unchanged.
-/
import proofs.«107343_j37538014167469_2_alg».proof.Defs
import proofs.«107343_j37538014167469_2_alg».proof.Proof.Gen.Kernel
import proofs.«107343_j37538014167469_2_alg».proof.Proof.Gen.KernelIdeal
import proofs.«107343_j37538014167469_2_alg».proof.Proof.Gen.ReferenceIdeal
import proofs.«107343_j37538014167469_2_alg».proof.Proof.Gen.Pre_finite_inputs
import proofs.«107343_j37538014167469_2_alg».proof.Proof.Gen.ReferenceIdeal.Run
import proofs.«107343_j37538014167469_2_alg».proof.Proof.FrameRunK
import proofs.«107343_j37538014167469_2_alg».proof.Proof.FrameRunKI
import proofs.«107343_j37538014167469_2_alg».proof.Proof.BridgeKI
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same function of the arguments in their result buffers. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
